-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S128x64 .f32) (main_arg4 : FVec F S64 .f32) (main_arg5 : FVec F S128x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S64x64 : Shape := ⟨2, ![64, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 54
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S64x64, .f32⟩
  | .hbm, ⟨34, _⟩ => ⟨S64x64, .f32⟩
  | .hbm, ⟨35, _⟩ => ⟨S1x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S64x64, .f32⟩
  | .hbm, ⟨51, _⟩ => ⟨S64x64, .f32⟩
  | .hbm, ⟨52, _⟩ => ⟨S1x64, .f32⟩
  | .hbm, ⟨53, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x128, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result named.

  The program is four segments: the host operations up to the first layer's tile kernel, that kernel over its twenty row
  blocks, the host operations of the second layer, and the second kernel. Every weakly fair execution terminates, and in
  the final state the result array holds what the second kernel's twenty write-backs leave in it, the fold of the
  flushed blocks over the array as that kernel found it, while the seven argument arrays are as launched.
-/
import proofs.«102615_j20444044329487_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the second kernel's folded write-backs and the
    arguments unchanged. -/
theorem run_named : θ_run defs (onTc (τ := τ) (main (F := F))) ⟨m, fun _ => 0, ρ⟩ (fun r => ∀ c : Dev nD,
      r.2.mem ((c.tc : Thread nD τ).loc main_v36) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v36 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«102615_j20444044329487_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibSplitLinear.lean ====
/-
  A linear layer on two column blocks, read entry by entry.

  Let `a` be an [M, Ka] matrix, `b` an [M, Kb] matrix, `W` a [K, N] matrix with K = Ka + Kb, and `bias` a vector of
  length N. Writing [a | b] for the two matrices laid side by side, the entry (p, q) of [a | b] · W + bias is

      ( ∑ k < Ka, a (p, k) · W (k, q)  +  ∑ k < Kb, b (p, k) · W (Ka + k, q) )  +  bias q          (`entry`)

  because a sum over the K columns of [a | b] is the sum over its first Ka columns, where it holds `a`, plus the sum over
  its last Kb, where it holds `b`. Only the associativity and commutativity of addition are used, so the identity holds on
  the extended reals with no finiteness assumed.

  Two programs that compute it are read here at an index:
    * the host's form — concatenate along axis 1, one `dot_general` against the whole `W`, the bias placed as a row and
      repeated down the rows (`host_apply`);
    * a tile's form — two matrix products into zero accumulators, one per column block against its own rows of the weight,
      added, plus a [1, N] row repeated down the tile (`tile_apply`), whatever float formats the products' operands have;
      when the tile's two weights are the upper and lower row blocks cut from `W` and its row is `bias` recast as [1, N],
      the tile's entry is `entry` (`tileEntry_cut`).
  `layer` is the whole [M, N] array of entries; `host_eq` and `tile_cut_eq` are the two forms as array equations.
-/
import proofs.«102615_j20444044329487_2_alg».proof.Proof.LibPlainDot
import proofs.«102615_j20444044329487_2_alg».proof.Proof.LibDotSums
import proofs.«102615_j20444044329487_2_alg».proof.Proof.LibBiasRow
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.SplitLinear

open Idealize.ShloMosaic Idealize.ShloMosaic.ValueIdx

variable {M Ka Kb K N : Nat}

/-- Row `k` of the weight's upper block, as a row of the whole weight. -/
def topRow (hK : Ka + Kb = K) (k : Fin Ka) : Fin K := ⟨k.val, by have := k.isLt; omega⟩

/-- Row `k` of the weight's lower block, as a row of the whole weight: `Ka` rows further down. -/
def botRow (hK : Ka + Kb = K) (k : Fin Kb) : Fin K := ⟨Ka + k.val, by have := k.isLt; omega⟩

/-- The entry (p, q) of [a | b] · W + bias, the contraction written block by block. -/
def entry (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) : EReal :=
  (∑ k : Fin Ka, a (ix2 p k) * W (ix2 (topRow hK k) q) + ∑ k : Fin Kb, b (ix2 p k) * W (ix2 (botRow hK k) q))
    + bias (ix1 q)

/-- A sum over K = Ka + Kb indices is the sum over the first Ka plus the sum over the last Kb. -/
theorem sum_split (hK : Ka + Kb = K) (f : Fin K → EReal) :
    ∑ k : Fin K, f k = ∑ k : Fin Ka, f (topRow hK k) + ∑ k : Fin Kb, f (botRow hK k) := by
  subst hK
  rw [Fin.sum_univ_add]
  exact congrArg₂ (· + ·) (Finset.sum_congr rfl fun k _ => congrArg f (Fin.ext rfl))
    (Finset.sum_congr rfl fun k _ => congrArg f (Fin.ext rfl))

/-- [a | b] at a column of its left part is `a` there. -/
theorem cat_top {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Ka) :
    concatenate ⟨2, ![M, K]⟩ 1 [⟨⟨2, ![M, Ka]⟩, a⟩, ⟨⟨2, ![M, Kb]⟩, b⟩] hc (ix2 p (topRow hK k)) = a (ix2 p k) :=
  concatenate_pair_apply_left 1 a b hc (ix2 p (topRow hK k)) rfl (ix2 p k) (fun ax => by
    match ax with
    | ⟨0, _⟩ => rfl
    | ⟨1, _⟩ => rfl)

/-- [a | b] at a column of its right part is `b` at that column less the left part's width. -/
theorem cat_bot {α : Type} (hK : Ka + Kb = K)
    (hc : Shape.Concatenates [(⟨2, ![M, Ka]⟩ : Shape), ⟨2, ![M, Kb]⟩] ⟨2, ![M, K]⟩ 1)
    (a : (⟨2, ![M, Ka]⟩ : Shape).Idx → α) (b : (⟨2, ![M, Kb]⟩ : Shape).Idx → α) (p : Fin M) (k : Fin Kb) :
    concatenate ⟨2, ![M, K]⟩ 1 [⟨⟨2, ![M, Ka]⟩, a⟩, ⟨⟨2, ![M, Kb]⟩, b⟩] hc (ix2 p (botRow hK k)) = b (ix2 p k) :=
  concatenate_pair_apply_right 1 a b hc (ix2 p (botRow hK k)) rfl rfl (ix2 p k) (fun ax hne => by
    match ax with
    | ⟨0, _⟩ => rfl
    | ⟨1, _⟩ => exact absurd rfl hne)
    (by show k.val + Ka = Ka + k.val; omega)

/-- THE HOST'S FORM at (p, q): the `dot_general` of the concatenation against the whole weight, plus the bias placed as
    a row and repeated down the rows, is `entry`. -/
theorem host_apply (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) (p : Fin M) (q : Fin N) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias)) (ix2 p q)
      = entry hK a b W bias p q := by
  rw [addf_apply]
  unfold entry
  refine congrArg₂ (· + ·) ?_ ?_
  · refine (Cert.DotSums.dotGeneral_ix2 d prec .single hlb hln hlc hrb hrn hrc hr hs _ W p q).trans ?_
    rw [sum_split hK]
    refine congrArg₂ (· + ·) (Finset.sum_congr rfl fun k _ => ?_) (Finset.sum_congr rfl fun k _ => ?_)
    · rw [cat_top hK hc a b p k]
    · rw [cat_bot hK hc a b p k]
  · rw [Cert.BiasRow.down_apply, Cert.BiasRow.row_apply]

/-- The two block sums along row `p` against column `q` of each block's own weight, plus the row's entry `q`. -/
def tileEntry {A : Nat} (a : (⟨2, ![A, Ka]⟩ : Shape).Idx → EReal) (wa : (⟨2, ![Ka, N]⟩ : Shape).Idx → EReal)
    (b : (⟨2, ![A, Kb]⟩ : Shape).Idx → EReal) (wb : (⟨2, ![Kb, N]⟩ : Shape).Idx → EReal)
    (row : (⟨2, ![1, N]⟩ : Shape).Idx → EReal) (p : Fin A) (q : Fin N) : EReal :=
  (∑ k : Fin Ka, a (ix2 p k) * wa (ix2 k q) + ∑ k : Fin Kb, b (ix2 p k) * wb (ix2 k q)) + row (ix2 (0 : Fin 1) q)

/-- With the weights the upper `Ka` rows and the next `Kb` rows cut from `W`, and the row the bias vector recast as
    [1, N], the tile's entry is the entry of [a | b] · W + bias. -/
theorem tileEntry_cut (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) (p : Fin M) (q : Fin N) :
    tileEntry a (extractStridedSlice ⟨2, ![Ka, N]⟩ ![0, 0] W hst) b (extractStridedSlice ⟨2, ![Kb, N]⟩ ![Ka, 0] W hsb)
        (shapeCast ⟨2, ![1, N]⟩ bias hrs) p q
      = entry hK a b W bias p q := by
  unfold tileEntry entry
  refine congrArg₂ (· + ·) (congrArg₂ (· + ·) (Finset.sum_congr rfl fun k _ => ?_) (Finset.sum_congr rfl fun k _ => ?_)) ?_
  · rw [slice2_axis0_apply 0 W hst k q (topRow hK k) (by show k.val = 0 + k.val; omega)]
  · rw [slice2_axis0_apply Ka W hsb k q (botRow hK k) rfl]
  · exact shapeCast_a_1a_apply bias hrs 0 q

/-- THE TILE'S FORM at (p, q): two products into zero accumulators, added, plus a [1, N] row repeated down the tile —
    the two block sums plus the row's entry `q`. The operands' float formats are free. -/
theorem tile_apply {A : Nat} {φ₁ φ₂ φ₃ φ₄ : FTy}
    (d₁ : DotDims ⟨2, ![A, Ka]⟩ ⟨2, ![Ka, N]⟩ ⟨2, ![A, N]⟩)
    (hlb₁ : d₁.lhsBatch = []) (hln₁ : d₁.lhsNonContracting = [0]) (hlc₁ : d₁.lhsContracting = [1])
    (hrb₁ : d₁.rhsBatch = []) (hrn₁ : d₁.rhsNonContracting = [1]) (hrc₁ : d₁.rhsContracting = [0])
    (hr₁ : d₁.contr.rank = 1) (hs₁ : d₁.contr.size ⟨0, by omega⟩ = Ka)
    (d₂ : DotDims ⟨2, ![A, Kb]⟩ ⟨2, ![Kb, N]⟩ ⟨2, ![A, N]⟩)
    (hlb₂ : d₂.lhsBatch = []) (hln₂ : d₂.lhsNonContracting = [0]) (hlc₂ : d₂.lhsContracting = [1])
    (hrb₂ : d₂.rhsBatch = []) (hrn₂ : d₂.rhsNonContracting = [1]) (hrc₂ : d₂.rhsContracting = [0])
    (hr₂ : d₂.contr.rank = 1) (hs₂ : d₂.contr.size ⟨0, by omega⟩ = Kb)
    (prec₁ prec₂ : Option ContractPrecision) (hbr : (⟨2, ![1, N]⟩ : Shape).Broadcasts ⟨2, ![A, N]⟩)
    (a : FVec Ideal ⟨2, ![A, Ka]⟩ φ₁) (wa : FVec Ideal ⟨2, ![Ka, N]⟩ φ₂)
    (b : FVec Ideal ⟨2, ![A, Kb]⟩ φ₃) (wb : FVec Ideal ⟨2, ![Kb, N]⟩ φ₄)
    (row : FVec Ideal ⟨2, ![1, N]⟩ .f32) (p : Fin A) (q : Fin N) :
    addf (addf (matmul d₁ prec₁ a wa (constant (F := Ideal) ⟨2, ![A, N]⟩ .f32 0x00000000#32))
               (matmul d₂ prec₂ b wb (constant (F := Ideal) ⟨2, ![A, N]⟩ .f32 0x00000000#32)))
         (broadcastTo ⟨2, ![A, N]⟩ row hbr) (ix2 p q)
      = tileEntry a wa b wb row p q := by
  unfold tileEntry
  rw [addf_apply, addf_apply]
  refine congrArg₂ (· + ·) (congrArg₂ (· + ·) ?_ ?_) ?_
  · exact Cert.DotSums.matmul_zero_ix2 d₁ prec₁ hlb₁ hln₁ hlc₁ hrb₁ hrn₁ hrc₁ hr₁ hs₁ a wa p q
  · exact Cert.DotSums.matmul_zero_ix2 d₂ prec₂ hlb₂ hln₂ hlc₂ hrb₂ hrn₂ hrc₂ hr₂ hs₂ b wb p q
  · exact broadcastTo_1b_ab_apply row hbr p q

/-! ## The whole arrays -/

/-- The [M, N] array [a | b] · W + bias. -/
def layer (hK : Ka + Kb = K) (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) : (⟨2, ![M, N]⟩ : Shape).Idx → EReal :=
  fun i => entry hK a b W bias (i 0) (i 1)

/-- The host's form is the array `layer`. -/
theorem host_eq (hK : Ka + Kb = K) (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (hc : Shape.Concatenates [(⟨2, ![M, Ka]⟩ : Shape), ⟨2, ![M, Kb]⟩] ⟨2, ![M, K]⟩ 1)
    (hb1 : (⟨1, ![N]⟩ : Shape).BroadcastsInDim ⟨2, ![1, N]⟩ ![1])
    (hb2 : (⟨2, ![1, N]⟩ : Shape).BroadcastsInDim ⟨2, ![M, N]⟩ ![0, 1])
    (a : FVec Ideal ⟨2, ![M, Ka]⟩ .f32) (b : FVec Ideal ⟨2, ![M, Kb]⟩ .f32) (W : FVec Ideal ⟨2, ![K, N]⟩ .f32)
    (bias : FVec Ideal ⟨1, ![N]⟩ .f32) :
    addf (Host.dotGeneral d prec
          (concatenate ⟨2, ![M, K]⟩ 1 [⟨⟨2, ![M, Ka]⟩, a⟩, ⟨⟨2, ![M, Kb]⟩, b⟩] hc : FVec Ideal ⟨2, ![M, K]⟩ .f32) W)
        (broadcastInDim ⟨2, ![M, N]⟩ ![0, 1] hb2 (broadcastInDim ⟨2, ![1, N]⟩ ![1] hb1 bias))
      = layer hK a b W bias := by
  funext i
  obtain ⟨p, q, rfl⟩ : ∃ (p : Fin M) (q : Fin N), i = ix2 p q := ⟨i 0, i 1, eq_ix2 i⟩
  exact host_apply hK d hlb hln hlc hrb hrn hrc hr hs prec hc hb1 hb2 a b W bias p q

/-- The array of tile entries, with the weights cut from `W` and the row recast from `bias`, is the array `layer`. -/
theorem tile_cut_eq (hK : Ka + Kb = K)
    (hst : (⟨2, ![K, N]⟩ : Shape).Slices ![0, 0] ⟨2, ![Ka, N]⟩) (hsb : (⟨2, ![K, N]⟩ : Shape).Slices ![Ka, 0] ⟨2, ![Kb, N]⟩)
    (hrs : (⟨1, ![N]⟩ : Shape).ShapeCasts ⟨2, ![1, N]⟩)
    (a : (⟨2, ![M, Ka]⟩ : Shape).Idx → EReal) (b : (⟨2, ![M, Kb]⟩ : Shape).Idx → EReal)
    (W : (⟨2, ![K, N]⟩ : Shape).Idx → EReal) (bias : (⟨1, ![N]⟩ : Shape).Idx → EReal) :
    (fun i : (⟨2, ![M, N]⟩ : Shape).Idx =>
        tileEntry a (extractStridedSlice ⟨2, ![Ka, N]⟩ ![0, 0] W hst) b (extractStridedSlice ⟨2, ![Kb, N]⟩ ![Ka, 0] W hsb)
          (shapeCast ⟨2, ![1, N]⟩ bias hrs) (i 0) (i 1))
      = layer hK a b W bias :=
  funext fun i => tileEntry_cut hK hst hsb hrs a b W bias (i 0) (i 1)

end Cert.SplitLinear

end
-- ==== Proof.LayerSpec.lean ====
/-
  One mean-aggregation layer, entry by entry.

  For node features `x` ([M, 64]), neighbour sums `S` ([M, 64]), neighbour counts `cnt` ([M]), a weight `W` ([128, 64])
  and a bias `b` ([64]) the layer's entry (p, q) is

      max ( ∑ k < 64, x (p, k) · W (k, q)  +  ∑ k < 64, (S (p, k) / max (cnt p) 1) · W (64 + k, q)  +  b q ,  0 ).

  A tile computes the same entry from a row block of `x`, of `S` and of the column of reciprocals 1 / max (cnt p) 1,
  multiplying each neighbour sum by the reciprocal instead of dividing. The divisor max (cnt p) 1 is at least 1, so it is
  not zero, and on the extended reals a quotient by a nonzero divisor is the product with the divisor's inverse: the
  product with the reciprocal 1 · c⁻¹ is the quotient, for every extended real numerator. No finiteness is used.
-/
import proofs.«102615_j20444044329487_2_alg».proof.Proof.LibSplitLinear
import Idealize.ShloMosaic.PureOps.Ideal.Laws
import Idealize.ShloMosaic.Lib.ValueIdx

open scoped BigOperators

noncomputable section

namespace Cert.SageLayer

open Idealize.ShloMosaic Idealize.ShloMosaic.ValueIdx

/-- The f32 word 0x3F800000 is the number one. -/
theorem one_word : Ideal.ofBits .f32 0x3F800000#32 = 1 := by
  simp [Ideal.ofBits, Ideal.ieee]
  norm_cast
  norm_num

/-- A maximum with one is not zero. -/
theorem max_one_ne_zero (c : EReal) : max c 1 ≠ 0 :=
  (lt_of_lt_of_le zero_lt_one (le_max_right c 1)).ne'

/-- The product with the reciprocal of a nonzero divisor is the quotient, for every extended real numerator. -/
theorem mul_recip (s c : EReal) (hc : c ≠ 0) : s * Ideal.div 1 c = Ideal.div s c := by
  unfold Ideal.div
  rw [if_neg hc, if_neg hc, one_mul]

variable {M : Nat}

/-- The mean of the neighbours' feature `k` at node `p`: the neighbour sum over the count, the count raised to one at
    a node with no neighbour. -/
def meanAt (S : (⟨2, ![M, 64]⟩ : Shape).Idx → EReal) (cnt : (⟨1, ![M]⟩ : Shape).Idx → EReal) (p : Fin M) (k : Fin 64) : EReal :=
  Ideal.div (S (ix2 p k)) (max (cnt (ix1 p)) 1)

/-- The [M, 64] array of neighbour means. -/
def mean (S : (⟨2, ![M, 64]⟩ : Shape).Idx → EReal) (cnt : (⟨1, ![M]⟩ : Shape).Idx → EReal) :
    (⟨2, ![M, 64]⟩ : Shape).Idx → EReal :=
  fun j => meanAt S cnt (j 0) (j 1)

/-- The layer's entry (p, q): the node's own features and its neighbours' means against the two row blocks of the
    weight, plus the bias, clipped below at zero. -/
def layerAt (x S : (⟨2, ![M, 64]⟩ : Shape).Idx → EReal) (cnt : (⟨1, ![M]⟩ : Shape).Idx → EReal)
    (W : (⟨2, ![128, 64]⟩ : Shape).Idx → EReal) (b : (⟨1, ![64]⟩ : Shape).Idx → EReal) (p : Fin M) (q : Fin 64) : EReal :=
  max (Cert.SplitLinear.entry (Ka := 64) (Kb := 64) (K := 128) rfl x (mean S cnt) W b p q) 0

/-- The layer's [M, 64] result. -/
def layer (x S : (⟨2, ![M, 64]⟩ : Shape).Idx → EReal) (cnt : (⟨1, ![M]⟩ : Shape).Idx → EReal)
    (W : (⟨2, ![128, 64]⟩ : Shape).Idx → EReal) (b : (⟨1, ![64]⟩ : Shape).Idx → EReal) :
    (⟨2, ![M, 64]⟩ : Shape).Idx → EReal :=
  fun i => layerAt x S cnt W b (i 0) (i 1)

/-- A tile's entry (p, q): the row's features against its weight and the row's neighbour sums, each times the row's
    reciprocal count, against theirs, plus the bias row, clipped below at zero. -/
def tileAt {A : Nat} (x s : (⟨2, ![A, 64]⟩ : Shape).Idx → EReal) (inv : (⟨2, ![A, 1]⟩ : Shape).Idx → EReal)
    (wx wn : (⟨2, ![64, 64]⟩ : Shape).Idx → EReal) (row : (⟨2, ![1, 64]⟩ : Shape).Idx → EReal) (p : Fin A) (q : Fin 64) : EReal :=
  max (Cert.SplitLinear.tileEntry x wx (fun j => s j * inv (ix2 (j 0) (0 : Fin 1))) wn row p q) 0

/-- A tile's entry depends on row `p` of its three row-indexed operands only. -/
theorem tileAt_congr {A A' : Nat} (x s : (⟨2, ![A, 64]⟩ : Shape).Idx → EReal) (inv : (⟨2, ![A, 1]⟩ : Shape).Idx → EReal)
    (x' s' : (⟨2, ![A', 64]⟩ : Shape).Idx → EReal) (inv' : (⟨2, ![A', 1]⟩ : Shape).Idx → EReal)
    (wx wn : (⟨2, ![64, 64]⟩ : Shape).Idx → EReal) (row : (⟨2, ![1, 64]⟩ : Shape).Idx → EReal)
    (wx' wn' : (⟨2, ![64, 64]⟩ : Shape).Idx → EReal) (row' : (⟨2, ![1, 64]⟩ : Shape).Idx → EReal)
    (p : Fin A) (p' : Fin A') (q : Fin 64)
    (hx : ∀ k : Fin 64, x (ix2 p k) = x' (ix2 p' k)) (hs : ∀ k : Fin 64, s (ix2 p k) = s' (ix2 p' k))
    (hi : inv (ix2 p (0 : Fin 1)) = inv' (ix2 p' (0 : Fin 1)))
    (hwx : wx = wx') (hwn : wn = wn') (hrow : row = row') :
    tileAt x s inv wx wn row p q = tileAt x' s' inv' wx' wn' row' p' q := by
  subst hwx hwn hrow
  unfold tileAt Cert.SplitLinear.tileEntry
  refine congrArg (max · 0) (congrArg (· + row (ix2 (0 : Fin 1) q)) (congrArg₂ (· + ·)
    (Finset.sum_congr rfl fun k _ => ?_) (Finset.sum_congr rfl fun k _ => ?_)))
  · rw [hx k]
  · show s (ix2 p k) * inv (ix2 p (0 : Fin 1)) * _ = s' (ix2 p' k) * inv' (ix2 p' (0 : Fin 1)) * _
    rw [hs k, hi]

/-- THE LAW. A tile fed the column of reciprocal counts, the two row blocks cut from the weight and the bias recast as a
    row computes the layer's entry. -/
theorem tileAt_eq_layerAt
    (hst : (⟨2, ![128, 64]⟩ : Shape).Slices ![0, 0] ⟨2, ![64, 64]⟩) (hsb : (⟨2, ![128, 64]⟩ : Shape).Slices ![64, 0] ⟨2, ![64, 64]⟩)
    (hrs : (⟨1, ![64]⟩ : Shape).ShapeCasts ⟨2, ![1, 64]⟩)
    (x S : (⟨2, ![M, 64]⟩ : Shape).Idx → EReal) (cnt : (⟨1, ![M]⟩ : Shape).Idx → EReal) (inv : (⟨2, ![M, 1]⟩ : Shape).Idx → EReal)
    (W : (⟨2, ![128, 64]⟩ : Shape).Idx → EReal) (b : (⟨1, ![64]⟩ : Shape).Idx → EReal)
    (hinv : ∀ p : Fin M, inv (ix2 p (0 : Fin 1)) = Ideal.div 1 (max (cnt (ix1 p)) 1)) (p : Fin M) (q : Fin 64) :
    tileAt x S inv (extractStridedSlice ⟨2, ![64, 64]⟩ ![0, 0] W hst) (extractStridedSlice ⟨2, ![64, 64]⟩ ![64, 0] W hsb)
        (shapeCast ⟨2, ![1, 64]⟩ b hrs) p q
      = layerAt x S cnt W b p q := by
  unfold tileAt layerAt
  have hm : (fun j : (⟨2, ![M, 64]⟩ : Shape).Idx => S j * inv (ix2 (j 0) (0 : Fin 1))) = mean S cnt := by
    funext j
    obtain ⟨r, k, rfl⟩ : ∃ (r : Fin M) (k : Fin 64), j = ix2 r k := ⟨j 0, j 1, eq_ix2 j⟩
    show S (ix2 r k) * inv (ix2 r (0 : Fin 1)) = Ideal.div (S (ix2 r k)) (max (cnt (ix1 r)) 1)
    rw [hinv r, mul_recip _ _ (max_one_ne_zero _)]
  rw [hm]
  exact congrArg (max · 0) (Cert.SplitLinear.tileEntry_cut (Ka := 64) (Kb := 64) (K := 128) rfl hst hsb hrs x (mean S cnt) W b p q)

end Cert.SageLayer

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.KernelTile.lean ====
/-
  What one tile of a layer's kernel stores, entry by entry.

  The kernel loads a block of 5000 rows of the node features, of the neighbour sums and of the reciprocal counts, the two
  64 × 64 weights and the bias row, and stores max (x · Wx + (s ⊙ inv) · Wn + row, 0). Read at (p, q) on the extended
  reals this is the tile entry of the layer's specification: the two matrix products into zero accumulators are plain sums
  over the 64 contracted columns, the broadcast of the reciprocal column reads the row's entry, the broadcast of the bias row
  reads column q, and the narrowing of the products' operands to bf16 is the identity.
-/
import proofs.«102615_j20444044329487_2_alg».proof.Proof.Gen.KernelIdeal.Skeleton
import proofs.«102615_j20444044329487_2_alg».proof.Proof.LayerSpec
import proofs.«102615_j20444044329487_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Tile

open Cert.KernelIdeal Cert.KernelIdeal.Gen Idealize.ShloMosaic Idealize.ShloMosaic.ValueIdx

/-- The body of layer one's tile kernel at (p, q): both products' operands are narrowed to bf16 first, which changes
    no extended real; the self-casts are identities; the column of reciprocals is read at the row's one entry. -/
theorem pay0_apply (x0 x1 : Vec Ideal S5000x64 .f32) (x2 : Vec Ideal S5000x1 .f32) (x3 x4 : Vec Ideal S64x64 .f32)
    (x5 : Vec Ideal S1x64 .f32) (p : Fin 5000) (q : Fin 64) :
    k0_pay1 x0 x1 x2 x3 x4 x5 (ix2 p q) = Cert.SageLayer.tileAt x0 x1 x2 x3 x4 x5 p q := by
  unfold k0_pay1
  rw [shapeCast_self, shapeCast_self, shapeCast_self, shapeCast_self, shapeCast_self]
  rw [maximumf_apply]
  unfold Cert.SageLayer.tileAt
  refine congrArg₂ max ?_ ?_
  · refine (Cert.SplitLinear.tile_apply (A := 5000) (Ka := 64) (Kb := 64) (N := 64)
      dot_S5000x64_S64x64_S5000x64_1_0_0_1_n_n rfl rfl rfl rfl rfl rfl rfl rfl
      dot_S5000x64_S64x64_S5000x64_1_0_0_1_n_n rfl rfl rfl rfl rfl rfl rfl rfl
      none none broadcasts_S1x64_S5000x64 _ _ _ _ x5 p q).trans ?_
    unfold Cert.SplitLinear.tileEntry
    refine congrArg (· + x5 (ix2 (0 : Fin 1) q)) (congrArg₂ (· + ·)
      (Finset.sum_congr rfl fun k _ => ?_) (Finset.sum_congr rfl fun k _ => ?_))
    · rfl
    · show (x1 (ix2 p k) * broadcastTo S5000x64 x2 broadcasts_S5000x1_S5000x64 (ix2 p k)) * x4 (ix2 k q) = _
      rw [Cert.ColumnLayout.broadcastTo_a1_ab_apply]
  · rw [broadcast_apply]
    exact Ideal.ofBits_zero_f32

/-- The body of layer two's tile kernel at (p, q): both products' operands are narrowed to bf16 first, which changes
    no extended real; the self-casts are identities; the column of reciprocals is read at the row's one entry. -/
theorem pay1_apply (x0 x1 : Vec Ideal S5000x64 .f32) (x2 : Vec Ideal S5000x1 .f32) (x3 x4 : Vec Ideal S64x64 .f32)
    (x5 : Vec Ideal S1x64 .f32) (p : Fin 5000) (q : Fin 64) :
    k1_pay1 x0 x1 x2 x3 x4 x5 (ix2 p q) = Cert.SageLayer.tileAt x0 x1 x2 x3 x4 x5 p q := by
  unfold k1_pay1
  rw [shapeCast_self, shapeCast_self, shapeCast_self, shapeCast_self, shapeCast_self, shapeCast_self]
  rw [maximumf_apply]
  unfold Cert.SageLayer.tileAt
  refine congrArg₂ max ?_ ?_
  · refine (Cert.SplitLinear.tile_apply (A := 5000) (Ka := 64) (Kb := 64) (N := 64)
      dot_S5000x64_S64x64_S5000x64_1_0_0_1_n_n rfl rfl rfl rfl rfl rfl rfl rfl
      dot_S5000x64_S64x64_S5000x64_1_0_0_1_n_n rfl rfl rfl rfl rfl rfl rfl rfl
      none none broadcasts_S1x64_S5000x64 _ _ _ _ x5 p q).trans ?_
    unfold Cert.SplitLinear.tileEntry
    refine congrArg (· + x5 (ix2 (0 : Fin 1) q)) (congrArg₂ (· + ·)
      (Finset.sum_congr rfl fun k _ => ?_) (Finset.sum_congr rfl fun k _ => ?_))
    · rfl
    · show (x1 (ix2 p k) * broadcastTo S5000x64 x2 broadcasts_S5000x1_S5000x64 (ix2 p k)) * x4 (ix2 k q) = _
      rw [Cert.ColumnLayout.broadcastTo_a1_ab_apply]
  · rw [broadcast_apply]
    exact Ideal.ofBits_zero_f32

end Cert.KernelIdeal.Tile

end
-- ==== Proof.KernelRegion0.lean ====
/-
  The first layer's tile kernel over its whole grid: what its output array holds after the twenty write-backs.

  Grid point t works on rows 5000·t … 5000·t + 4999: its blocks of the node features, of the neighbour sums and of the
  reciprocal counts are those rows of their arrays, the two weights and the bias row are fetched whole, and the point writes
  back those rows of the output. Every row lies in exactly the block of point (row / 5000), so the blocks cover the array and
  it ends holding, at (r, q), the tile entry computed from row r of the three row-indexed arrays.
-/
import proofs.«102615_j20444044329487_2_alg».proof.Proof.Gen.KernelIdeal.Frame
import proofs.«102615_j20444044329487_2_alg».proof.Proof.KernelTile

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the kernel finds: the tile entry of each row. -/
def G (c : Dev nD) : S100000x64.Idx → EReal := fun i =>
  Cert.SageLayer.tileAt (A := 100000) (V c main_arg0 : S100000x64.Idx → EReal) (V c main_v18 : S100000x64.Idx → EReal)
    (V c main_v8 : S100000x1.Idx → EReal) (V c main_v19 : S64x64.Idx → EReal) (V c main_v20 : S64x64.Idx → EReal)
    (V c main_v21 : S1x64.Idx → EReal) (i 0) (i 1)

/-- The printed index maps over the grid: the three row-indexed inputs and the output are at row block t, column block 0;
    the weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 20 := by
  exact lt_of_lt_of_eq t.isLt (show cfg0.N = 20 from N_0)

/-- The node-feature block at point t is rows 5000·t … of the array. -/
theorem blk_x (c : Dev nD) (t : Fin cfg0.N) (y : S5000x64.Idx) (k : S100000x64.Idx)
    (hk0 : (k 0).val = 5000 * t.val + (y 0).val) (hk1 : (k 1).val = (y 1).val) :
    (iblk0 V c 0 t : Vec Ideal S5000x64 .f32) y = (V c main_arg0 : S100000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- The neighbour-sum block at point t is rows 5000·t … of the array. -/
theorem blk_s (c : Dev nD) (t : Fin cfg0.N) (y : S5000x64.Idx) (k : S100000x64.Idx)
    (hk0 : (k 0).val = 5000 * t.val + (y 0).val) (hk1 : (k 1).val = (y 1).val) :
    (iblk0 V c 1 t : Vec Ideal S5000x64 .f32) y = (V c main_v18 : S100000x64.Idx → EReal) k := by
  obtain ⟨-, -, e0, e1, -⟩ := idx_facts t
  unfold iblk0
  rw [View.read_apply]
  show V c main_v18 _ = V c main_v18 _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 64 + 1 * (y 1).val = (k 1).val; rw [e1, hk1]; omega

/-- The reciprocal-count block at point t is rows 5000·t … of the column. -/
theorem blk_inv (c : Dev nD) (t : Fin cfg0.N) (y : S5000x1.Idx) (k : S100000x1.Idx)
    (hk0 : (k 0).val = 5000 * t.val + (y 0).val) (hk1 : (k 1).val = (y 1).val) :
    (iblk0 V c 2 t : Vec Ideal S5000x1 .f32) y = (V c main_v8 : S100000x1.Idx → EReal) k := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- The first weight's block is the whole weight at every point. -/
theorem blk_wx (c : Dev nD) (t : Fin cfg0.N) :
    (iblk0 V c 3 t : Vec Ideal S64x64 .f32) = (V c main_v19 : S64x64.Idx → EReal) := by
  obtain ⟨-, -, -, -, -, -, e0, e1, -⟩ := idx_facts t
  funext y
  unfold iblk0
  rw [View.read_apply]
  show V c main_v19 _ = V c main_v19 _
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The second weight's block is the whole weight at every point. -/
theorem blk_wn (c : Dev nD) (t : Fin cfg0.N) :
    (iblk0 V c 4 t : Vec Ideal S64x64 .f32) = (V c main_v20 : S64x64.Idx → EReal) := by
  obtain ⟨-, -, -, -, -, -, -, -, e0, e1, -⟩ := idx_facts t
  funext y
  unfold iblk0
  rw [View.read_apply]
  show V c main_v20 _ = V c main_v20 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The bias row's block is the whole row at every point. -/
theorem blk_row (c : Dev nD) (t : Fin cfg0.N) :
    (iblk0 V c 5 t : Vec Ideal S1x64 .f32) = (V c main_v21 : S1x64.Idx → EReal) := by
  obtain ⟨-, -, -, -, -, -, -, -, -, -, e0, e1, -⟩ := idx_facts t
  funext y
  unfold iblk0
  rw [View.read_apply]
  show V c main_v21 _ = V c main_v21 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- WHAT POINT t WRITES BACK is its row block of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz,
    View.ld_unit_zero (S := S64x64) hz, View.ld_unit_zero (S := S1x64) hz]
  obtain ⟨-, -, -, -, -, -, -, -, -, -, -, -, e0, e1⟩ := idx_facts t
  have ht := t_lt t
  funext j
  obtain ⟨p, q, rfl⟩ : ∃ (p : Fin 5000) (q : Fin 64), j = ix2 p q := ⟨j 0, j 1, eq_ix2 j⟩
  have hemb : (((cfg0.win 6).blk t).view.emb (ix2 p q) : S100000x64.Idx)
      = ix2 (⟨5000 * t.val + p.val, by have := p.isLt; omega⟩ : Fin 100000) q := by
    funext a
    apply Fin.ext
    match a with
    | ⟨0, _⟩ => show win0_6.index t (0 : Fin 2) * 5000 + 1 * p.val = 5000 * t.val + p.val; rw [e0]; omega
    | ⟨1, _⟩ => show win0_6.index t (1 : Fin 2) * 64 + 1 * q.val = q.val; rw [e1]; omega
  rw [View.read_apply, hemb]
  refine (Cert.KernelIdeal.Tile.pay0_apply (iblk0 V c 0 t) (iblk0 V c 1 t) (iblk0 V c 2 t) (iblk0 V c 3 t)
    (iblk0 V c 4 t) (iblk0 V c 5 t) p q).trans ?_
  exact Cert.SageLayer.tileAt_congr _ _ _ _ _ _ _ _ _ _ _ _ p _ q
    (fun k => blk_x V c t (ix2 p k) (ix2 _ k) rfl rfl) (fun k => blk_s V c t (ix2 p k) (ix2 _ k) rfl rfl)
    (blk_inv V c t (ix2 p (0 : Fin 1)) (ix2 _ (0 : Fin 1)) rfl rfl)
    (blk_wx V c t) (blk_wn V c t) (blk_row V c t)

/-- Every row of the output array lies in the block of point (row / 5000). -/
theorem cover (i : S100000x64.Idx) :
    ∃ t : Fin cfg0.N, (cfg0.win 6).flush t = true ∧ i ∈ ((cfg0.win 6).blk t).view.set := by
  have h0 : (i 0).val < 100000 := idx2_lt0 i
  have h1 : (i 1).val < 64 := idx2_lt1 i
  have hN : cfg0.N = 20 := N_0
  let t : Fin cfg0.N := ⟨(i 0).val / 5000, by rw [hN]; omega⟩
  obtain ⟨-, -, -, -, -, -, -, -, -, -, -, -, e0, e1⟩ := idx_facts t
  refine ⟨t, flush0_6 t, ?_⟩
  show i ∈ ((View.whole main_v22).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0]
    show (i 0).val / 5000 * 5000 ≤ (i 0).val ∧ (i 0).val < (i 0).val / 5000 * 5000 + 5000
    omega
  | ⟨1, _⟩ =>
    show win0_6.index t (1 : Fin 2) * 64 ≤ (i 1).val ∧ (i 1).val < win0_6.index t (1 : Fin 2) * 64 + 64
    rw [e1]
    omega

/-- THE OUTPUT ARRAY after the kernel's run. -/
theorem final (c : Dev nD) : (dat0 V c).arrAt 6 cfg0.N = G V c :=
  (dat0 V c).arrAt_eq_of_cover 6 (G V c) (fun t _ => flushed_eq V c t) cover

end Cert.KernelIdeal.Region0

end
-- ==== Proof.KernelRegion1.lean ====
/-
  The second layer's tile kernel over its whole grid: what its output array holds after the twenty write-backs.

  Grid point t works on rows 5000·t … 5000·t + 4999: its blocks of the node features, of the neighbour sums and of the
  reciprocal counts are those rows of their arrays, the two weights and the bias row are fetched whole, and the point writes
  back those rows of the output. Every row lies in exactly the block of point (row / 5000), so the blocks cover the array and
  it ends holding, at (r, q), the tile entry computed from row r of the three row-indexed arrays.
-/
import proofs.«102615_j20444044329487_2_alg».proof.Proof.Gen.KernelIdeal.Frame
import proofs.«102615_j20444044329487_2_alg».proof.Proof.KernelTile

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the kernel finds: the tile entry of each row. -/
def G (c : Dev nD) : S100000x64.Idx → EReal := fun i =>
  Cert.SageLayer.tileAt (A := 100000) (V c main_v22 : S100000x64.Idx → EReal) (V c main_v32 : S100000x64.Idx → EReal)
    (V c main_v8 : S100000x1.Idx → EReal) (V c main_v33 : S64x64.Idx → EReal) (V c main_v34 : S64x64.Idx → EReal)
    (V c main_v35 : S1x64.Idx → EReal) (i 0) (i 1)

/-- The printed index maps over the grid: the three row-indexed inputs and the output are at row block t, column block 0;
    the weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 20 := by
  exact lt_of_lt_of_eq t.isLt (show cfg1.N = 20 from N_1)

/-- The node-feature block at point t is rows 5000·t … of the array. -/
theorem blk_x (c : Dev nD) (t : Fin cfg1.N) (y : S5000x64.Idx) (k : S100000x64.Idx)
    (hk0 : (k 0).val = 5000 * t.val + (y 0).val) (hk1 : (k 1).val = (y 1).val) :
    (iblk1 V c 0 t : Vec Ideal S5000x64 .f32) y = (V c main_v22 : S100000x64.Idx → EReal) k := by
  obtain ⟨e0, e1, -⟩ := idx_facts t
  unfold iblk1
  rw [View.read_apply]
  show V c main_v22 _ = V c main_v22 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- The neighbour-sum block at point t is rows 5000·t … of the array. -/
theorem blk_s (c : Dev nD) (t : Fin cfg1.N) (y : S5000x64.Idx) (k : S100000x64.Idx)
    (hk0 : (k 0).val = 5000 * t.val + (y 0).val) (hk1 : (k 1).val = (y 1).val) :
    (iblk1 V c 1 t : Vec Ideal S5000x64 .f32) y = (V c main_v32 : S100000x64.Idx → EReal) k := by
  obtain ⟨-, -, e0, e1, -⟩ := idx_facts t
  unfold iblk1
  rw [View.read_apply]
  show V c main_v32 _ = V c main_v32 _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 64 + 1 * (y 1).val = (k 1).val; rw [e1, hk1]; omega

/-- The reciprocal-count block at point t is rows 5000·t … of the column. -/
theorem blk_inv (c : Dev nD) (t : Fin cfg1.N) (y : S5000x1.Idx) (k : S100000x1.Idx)
    (hk0 : (k 0).val = 5000 * t.val + (y 0).val) (hk1 : (k 1).val = (y 1).val) :
    (iblk1 V c 2 t : Vec Ideal S5000x1 .f32) y = (V c main_v8 : S100000x1.Idx → EReal) k := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t (0 : Fin 2) * 5000 + 1 * (y 0).val = (k 0).val; rw [e0, hk0]; omega
  | ⟨1, _⟩ => show win1_2.index t (1 : Fin 2) * 1 + 1 * (y 1).val = (k 1).val; rw [e1, hk1]; omega

/-- The first weight's block is the whole weight at every point. -/
theorem blk_wx (c : Dev nD) (t : Fin cfg1.N) :
    (iblk1 V c 3 t : Vec Ideal S64x64 .f32) = (V c main_v33 : S64x64.Idx → EReal) := by
  obtain ⟨-, -, -, -, -, -, e0, e1, -⟩ := idx_facts t
  funext y
  unfold iblk1
  rw [View.read_apply]
  show V c main_v33 _ = V c main_v33 _
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- The second weight's block is the whole weight at every point. -/
theorem blk_wn (c : Dev nD) (t : Fin cfg1.N) :
    (iblk1 V c 4 t : Vec Ideal S64x64 .f32) = (V c main_v34 : S64x64.Idx → EReal) := by
  obtain ⟨-, -, -, -, -, -, -, -, e0, e1, -⟩ := idx_facts t
  funext y
  unfold iblk1
  rw [View.read_apply]
  show V c main_v34 _ = V c main_v34 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The bias row's block is the whole row at every point. -/
theorem blk_row (c : Dev nD) (t : Fin cfg1.N) :
    (iblk1 V c 5 t : Vec Ideal S1x64 .f32) = (V c main_v35 : S1x64.Idx → EReal) := by
  obtain ⟨-, -, -, -, -, -, -, -, -, -, e0, e1, -⟩ := idx_facts t
  funext y
  unfold iblk1
  rw [View.read_apply]
  show V c main_v35 _ = V c main_v35 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- WHAT POINT t WRITES BACK is its row block of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz,
    View.ld_unit_zero (S := S64x64) hz, View.ld_unit_zero (S := S1x64) hz]
  obtain ⟨-, -, -, -, -, -, -, -, -, -, -, -, e0, e1⟩ := idx_facts t
  have ht := t_lt t
  funext j
  obtain ⟨p, q, rfl⟩ : ∃ (p : Fin 5000) (q : Fin 64), j = ix2 p q := ⟨j 0, j 1, eq_ix2 j⟩
  have hemb : (((cfg1.win 6).blk t).view.emb (ix2 p q) : S100000x64.Idx)
      = ix2 (⟨5000 * t.val + p.val, by have := p.isLt; omega⟩ : Fin 100000) q := by
    funext a
    apply Fin.ext
    match a with
    | ⟨0, _⟩ => show win1_6.index t (0 : Fin 2) * 5000 + 1 * p.val = 5000 * t.val + p.val; rw [e0]; omega
    | ⟨1, _⟩ => show win1_6.index t (1 : Fin 2) * 64 + 1 * q.val = q.val; rw [e1]; omega
  rw [View.read_apply, hemb]
  refine (Cert.KernelIdeal.Tile.pay1_apply (iblk1 V c 0 t) (iblk1 V c 1 t) (iblk1 V c 2 t) (iblk1 V c 3 t)
    (iblk1 V c 4 t) (iblk1 V c 5 t) p q).trans ?_
  exact Cert.SageLayer.tileAt_congr _ _ _ _ _ _ _ _ _ _ _ _ p _ q
    (fun k => blk_x V c t (ix2 p k) (ix2 _ k) rfl rfl) (fun k => blk_s V c t (ix2 p k) (ix2 _ k) rfl rfl)
    (blk_inv V c t (ix2 p (0 : Fin 1)) (ix2 _ (0 : Fin 1)) rfl rfl)
    (blk_wx V c t) (blk_wn V c t) (blk_row V c t)

/-- Every row of the output array lies in the block of point (row / 5000). -/
theorem cover (i : S100000x64.Idx) :
    ∃ t : Fin cfg1.N, (cfg1.win 6).flush t = true ∧ i ∈ ((cfg1.win 6).blk t).view.set := by
  have h0 : (i 0).val < 100000 := idx2_lt0 i
  have h1 : (i 1).val < 64 := idx2_lt1 i
  have hN : cfg1.N = 20 := N_1
  let t : Fin cfg1.N := ⟨(i 0).val / 5000, by rw [hN]; omega⟩
  obtain ⟨-, -, -, -, -, -, -, -, -, -, -, -, e0, e1⟩ := idx_facts t
  refine ⟨t, flush1_6 t, ?_⟩
  show i ∈ ((View.whole main_v36).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    rw [e0]
    show (i 0).val / 5000 * 5000 ≤ (i 0).val ∧ (i 0).val < (i 0).val / 5000 * 5000 + 5000
    omega
  | ⟨1, _⟩ =>
    show win1_6.index t (1 : Fin 2) * 64 ≤ (i 1).val ∧ (i 1).val < win1_6.index t (1 : Fin 2) * 64 + 64
    rw [e1]
    omega

/-- THE OUTPUT ARRAY after the kernel's run. -/
theorem final (c : Dev nD) : (dat1 V c).arrAt 6 cfg1.N = G V c :=
  (dat1 V c).arrAt_eq_of_cover 6 (G V c) (fun t _ => flushed_eq V c t) cover

end Cert.KernelIdeal.Region1

end
-- ==== Proof.Aggregate.lean ====
/-
  The neighbour aggregation both programs share, named once.

  Both programs gather, for every edge, the feature row of the edge's source node (a negative source index counted from
  the end), add the gathered rows into the rows of the edges' destination nodes starting from zero (`agg`), and count
  each node's incoming edges by adding a one per edge (`cntOf`). These operations are written identically in the two
  programs and are never opened here: the two programs' dimension records for them are one record (`rfl`), so the terms
  are the same function of the node features and the two index vectors.

  `twoLayer` is the whole network: a layer on the inputs, a layer on its result, the counts shared.
-/
import proofs.«102615_j20444044329487_2_alg».proof.Proof.Gen.KernelIdeal
import proofs.«102615_j20444044329487_2_alg».proof.Proof.Gen.ReferenceIdeal
import proofs.«102615_j20444044329487_2_alg».proof.Proof.LayerSpec

noncomputable section

namespace Cert.Sage

open Idealize.ShloMosaic Cert.ReferenceIdeal Cert.ReferenceIdeal.Gen

/-- The source indices as a column, a negative index moved up by the number of nodes. -/
def srcCol (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sums: the source nodes' feature rows added into the destination nodes' rows, from zero. -/
def agg (x : (⟨S100000x64, .f32⟩ : BufTy).Contents (Elt Ideal)) (src dst : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x (srcCol src))

/-- The neighbour counts: a one added per incoming edge, from zero. -/
def cntOf (dst : (⟨S1600000, .i32⟩ : BufTy).Contents (Elt Ideal)) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- One layer on features `x`: its own neighbour sums, the shared counts. -/
def layerOn (x : (⟨S100000x64, .f32⟩ : BufTy).Contents (Elt Ideal)) (src dst : (⟨S1600000, .i32⟩ : BufTy).Contents (Elt Ideal))
    (W : (⟨S128x64, .f32⟩ : BufTy).Contents (Elt Ideal)) (b : (⟨S64, .f32⟩ : BufTy).Contents (Elt Ideal)) :
    (⟨S100000x64, .f32⟩ : BufTy).Contents (Elt Ideal) :=
  Cert.SageLayer.layer (M := 100000) x (agg x src dst) (cntOf dst) W b

/-- The two layers. -/
def twoLayer (x : (⟨S100000x64, .f32⟩ : BufTy).Contents (Elt Ideal)) (src dst : (⟨S1600000, .i32⟩ : BufTy).Contents (Elt Ideal))
    (W1 : (⟨S128x64, .f32⟩ : BufTy).Contents (Elt Ideal)) (b1 : (⟨S64, .f32⟩ : BufTy).Contents (Elt Ideal))
    (W2 : (⟨S128x64, .f32⟩ : BufTy).Contents (Elt Ideal)) (b2 : (⟨S64, .f32⟩ : BufTy).Contents (Elt Ideal)) :
    (⟨S100000x64, .f32⟩ : BufTy).Contents (Elt Ideal) :=
  layerOn (layerOn x src dst W1 b1) src dst W2 b2

/-! ## The idealized kernel program's spelling of the same operations -/

/-- The kernel program's neighbour sums are `agg`. -/
theorem agg_kernel (x : (⟨Cert.KernelIdeal.S100000x64, .f32⟩ : BufTy).Contents (Elt Ideal))
    (src dst : (⟨Cert.KernelIdeal.S1600000, .i32⟩ : BufTy).Contents (Elt Ideal)) :
    Host.scatterAdd (F := Ideal) Cert.KernelIdeal.scatter_S100000x64_S1600000x1_S1600000x64_1_0_0_1
      (broadcastInDim Cert.KernelIdeal.S100000x64 ![] Cert.KernelIdeal.Facts₀.bcast_S_S100000x64 (constant (F := Ideal) Cert.KernelIdeal.S_ .f32 0x00000000#32))
      (broadcastInDim Cert.KernelIdeal.S1600000x1 ![0] Cert.KernelIdeal.Facts₀.bcast_S1600000_S1600000x1_0 dst)
      (Host.gather Cert.KernelIdeal.gather_S100000x64_S1600000x1_S1600000x64_1_0_n_n_0_1_164 x
        (broadcastInDim Cert.KernelIdeal.S1600000x1 ![0] Cert.KernelIdeal.Facts₀.bcast_S1600000_S1600000x1_0
          (select (cmpi .slt src (broadcastInDim Cert.KernelIdeal.S1600000 ![] Cert.KernelIdeal.Facts₀.bcast_S_S1600000 (constantI Cert.KernelIdeal.S_ 32 0#32)))
            (addi src (broadcastInDim Cert.KernelIdeal.S1600000 ![] Cert.KernelIdeal.Facts₀.bcast_S_S1600000 (constantI Cert.KernelIdeal.S_ 32 100000#32))) src)))
      = agg x src dst := rfl

/-- The kernel program's neighbour counts are `cntOf`. -/
theorem cnt_kernel (dst : (⟨Cert.KernelIdeal.S1600000, .i32⟩ : BufTy).Contents (Elt Ideal)) :
    Host.scatterAdd (F := Ideal) Cert.KernelIdeal.scatter_S100000_S1600000x1_S1600000_n_0_0_1
      (broadcastInDim Cert.KernelIdeal.S100000 ![] Cert.KernelIdeal.Facts₀.bcast_S_S100000 (constant (F := Ideal) Cert.KernelIdeal.S_ .f32 0x00000000#32))
      (broadcastInDim Cert.KernelIdeal.S1600000x1 ![0] Cert.KernelIdeal.Facts₀.bcast_S1600000_S1600000x1_0 dst)
      (broadcastInDim Cert.KernelIdeal.S1600000 ![] Cert.KernelIdeal.Facts₀.bcast_S_S1600000 (constant (F := Ideal) Cert.KernelIdeal.S_ .f32 0x3F800000#32))
      = cntOf dst := rfl

end Cert.Sage

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.KernelValue.lean ====
/-
  The idealized kernel program's result as a function of its arguments.

  Reading the program's four segments in order. Before the first kernel the host has formed the neighbour sums of the
  inputs, the column of reciprocals 1 / max (count, 1), the upper and lower 64 rows of the first weight and the first bias
  as a row; the first kernel leaves in its output array the tile entries of those arrays, which are the specified layer of
  the inputs (the product with the reciprocal is the quotient: a count raised to one is not zero). Before the second kernel
  the host forms the neighbour sums of that output and cuts the second weight and bias the same way; the reciprocal column
  is the one already formed, and the arguments are untouched. The second kernel's output is then the specified layer of
  the first layer's result: the two layers.
-/
import proofs.«102615_j20444044329487_2_alg».proof.Proof.Gen.KernelIdeal.Frame
import proofs.«102615_j20444044329487_2_alg».proof.Proof.KernelRun
import proofs.«102615_j20444044329487_2_alg».proof.Proof.KernelRegion0
import proofs.«102615_j20444044329487_2_alg».proof.Proof.KernelRegion1
import proofs.«102615_j20444044329487_2_alg».proof.Proof.Aggregate
import proofs.«102615_j20444044329487_2_alg».proof.Proof.LayerSpec
import proofs.«102615_j20444044329487_2_alg».proof.Proof.LibColumnLayout
import proofs.«102615_j20444044329487_2_alg».proof.Proof.LibBroadcastInDim
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The column of reciprocal counts 1 / max (count, 1), as the host forms it once. -/
def invCol (dst : (⟨S1600000, .i32⟩ : BufTy).Contents (Elt Ideal)) : FVec Ideal S100000x1 .f32 :=
  shapeCast S100000x1
    (Host.divf (broadcastInDim S100000 ![] bcast_S_S100000 (constant (F := Ideal) S_ .f32 0x3F800000#32))
      (maximumf (Cert.Sage.cntOf dst) (broadcastInDim S100000 ![] bcast_S_S100000 (constant (F := Ideal) S_ .f32 0x3F800000#32))))
    shapeCasts_S100000_S100000x1

/-- The host's quotient at an index is the quotient of the elements. -/
theorem hostDivf_apply {s : Shape} {φ : FTy} (a b : FVec Ideal s φ) (i : s.Idx) :
    Host.divf a b i = Ideal.div (a i) (b i) := rfl

/-- Row `p` of the column is one over the count of node `p` raised to one. -/
theorem invCol_apply (dst : (⟨S1600000, .i32⟩ : BufTy).Contents (Elt Ideal)) (p : Fin 100000) :
    invCol dst (ix2 p (0 : Fin 1))
      = Ideal.div 1 (max ((Cert.Sage.cntOf dst : (⟨1, ![100000]⟩ : Shape).Idx → EReal) (ix1 p)) 1) := by
  unfold invCol
  rw [Cert.ColumnLayout.shapeCast_a_a1_apply]
  rw [hostDivf_apply, maximumf_apply, Cert.BroadcastInDim.scalar_apply, constant_apply, Cert.SageLayer.one_word]

/-! ## What the first kernel finds -/

theorem V1_arg0 (c : Dev nD) : V1 m ρ c main_arg0 = (m ((c.tc : Thread nD τ).loc main_arg0)) := by
  show StableHlo.after hostOps0 (W0 m ρ c) (Proc.devRef .tc main_arg0) = _
  after_results_simp <;> rfl

set_option maxHeartbeats 2000000 in
theorem V1_v18 (c : Dev nD) : V1 m ρ c main_v18 = Cert.Sage.agg (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results_simp
  rfl

set_option maxHeartbeats 2000000 in
theorem V1_v8 (c : Dev nD) : V1 m ρ c main_v8 = invCol (m ((c.tc : Thread nD τ).loc main_arg2)) := by
  show StableHlo.after hostOps0 (W0 m ρ c) (Proc.devRef .tc main_v8) = _
  after_results_simp
  rfl

set_option maxHeartbeats 2000000 in
theorem V1_v19 (c : Dev nD) : V1 m ρ c main_v19 = extractStridedSlice S64x64 ![0, 0] (m ((c.tc : Thread nD τ).loc main_arg3)) slices_S128x64_S64x64_0_0 := by
  show StableHlo.after hostOps0 (W0 m ρ c) (Proc.devRef .tc main_v19) = _
  after_results_simp <;> rfl

set_option maxHeartbeats 2000000 in
theorem V1_v20 (c : Dev nD) : V1 m ρ c main_v20 = extractStridedSlice S64x64 ![64, 0] (m ((c.tc : Thread nD τ).loc main_arg3)) slices_S128x64_S64x64_64_0 := by
  show StableHlo.after hostOps0 (W0 m ρ c) (Proc.devRef .tc main_v20) = _
  after_results_simp <;> rfl

set_option maxHeartbeats 2000000 in
theorem V1_v21 (c : Dev nD) : V1 m ρ c main_v21 = shapeCast S1x64 (m ((c.tc : Thread nD τ).loc main_arg4)) shapeCasts_S64_S1x64 := by
  show StableHlo.after hostOps0 (W0 m ρ c) (Proc.devRef .tc main_v21) = _
  after_results_simp
  rfl

/-- THE FIRST KERNEL'S OUTPUT is the specified layer of the inputs. -/
theorem layer1 (c : Dev nD) :
    Cert.KernelIdeal.Region0.G (V1 m ρ) c = Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨p, q, rfl⟩ : ∃ (p : Fin 100000) (q : Fin 64), i = ix2 p q := ⟨i 0, i 1, eq_ix2 i⟩
  unfold Cert.KernelIdeal.Region0.G
  rw [V1_arg0, V1_v18, V1_v8, V1_v19, V1_v20, V1_v21]
  exact Cert.SageLayer.tileAt_eq_layerAt slices_S128x64_S64x64_0_0 slices_S128x64_S64x64_64_0 shapeCasts_S64_S1x64
    (m ((c.tc : Thread nD τ).loc main_arg0)) (Cert.Sage.agg (m ((c.tc : Thread nD τ).loc main_arg0)) (m ((c.tc : Thread nD τ).loc main_arg1)) (m ((c.tc : Thread nD τ).loc main_arg2))) (Cert.Sage.cntOf (m ((c.tc : Thread nD τ).loc main_arg2))) (invCol (m ((c.tc : Thread nD τ).loc main_arg2))) (m ((c.tc : Thread nD τ).loc main_arg3)) (m ((c.tc : Thread nD τ).loc main_arg4))
    (invCol_apply _) p q

/-! ## Between the kernels -/

/-- The first kernel's output array, when it has run. -/
theorem W2_v22 (c : Dev nD) :
    W2 m ρ c (Proc.devRef .tc main_v22) = Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 6).trans ((Cert.KernelIdeal.Region0.final (V1 m ρ) c).trans (layer1 m ρ c))

/-- The reciprocal column is one of the first kernel's inputs: it is as the kernel found it. -/
theorem W2_v8 (c : Dev nD) : W2 m ρ c (Proc.devRef .tc main_v8) = invCol (m ((c.tc : Thread nD τ).loc main_arg2)) :=
  ((W2_arr m ρ c 2).trans (((dat0 (V1 m ρ) c).arrAt_in 2 rfl _).trans (A_eq0 (V1 m ρ) c 2))).trans (V1_v8 m ρ c)

set_option maxHeartbeats 2000000 in
theorem W2_arg1 (c : Dev nD) : W2 m ρ c (Proc.devRef .tc main_arg1) = (m ((c.tc : Thread nD τ).loc main_arg1)) :=
  (W2_of_ne m ρ c main_arg1 (by decide)).trans (by
    show StableHlo.after hostOps0 (W0 m ρ c) (Proc.devRef .tc main_arg1) = _
    after_results_simp <;> rfl)

set_option maxHeartbeats 2000000 in
theorem W2_arg2 (c : Dev nD) : W2 m ρ c (Proc.devRef .tc main_arg2) = (m ((c.tc : Thread nD τ).loc main_arg2)) :=
  (W2_of_ne m ρ c main_arg2 (by decide)).trans (by
    show StableHlo.after hostOps0 (W0 m ρ c) (Proc.devRef .tc main_arg2) = _
    after_results_simp <;> rfl)

set_option maxHeartbeats 2000000 in
theorem W2_arg5 (c : Dev nD) : W2 m ρ c (Proc.devRef .tc main_arg5) = (m ((c.tc : Thread nD τ).loc main_arg5)) :=
  (W2_of_ne m ρ c main_arg5 (by decide)).trans (by
    show StableHlo.after hostOps0 (W0 m ρ c) (Proc.devRef .tc main_arg5) = _
    after_results_simp <;> rfl)

set_option maxHeartbeats 2000000 in
theorem W2_arg6 (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results_simp <;> rfl)

/-! ## What the second kernel finds -/

theorem V3_v22 (c : Dev nD) : V3 m ρ c main_v22 = Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v22) = _
  after_results
  exact W2_v22 m ρ c

theorem V3_v32 (c : Dev nD) :
    V3 m ρ c main_v32 = Cert.Sage.agg (Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) := by
  show StableHlo.after hostOps1 (W2 m ρ c) (Proc.devRef .tc main_v32) = _
  after_results
  rw [W2_v22, W2_arg1, W2_arg2]
  rfl

theorem V3_v8 (c : Dev nD) : V3 m ρ c main_v8 = invCol (m ((c.tc : Thread nD τ).loc main_arg2)) := by
  show StableHlo.after hostOps1 (W2 m ρ c) (Proc.devRef .tc main_v8) = _
  after_results
  exact W2_v8 m ρ c

theorem V3_v33 (c : Dev nD) : V3 m ρ c main_v33 = extractStridedSlice S64x64 ![0, 0] (m ((c.tc : Thread nD τ).loc main_arg5)) slices_S128x64_S64x64_0_0 := by
  show StableHlo.after hostOps1 (W2 m ρ c) (Proc.devRef .tc main_v33) = _
  after_results
  rw [W2_arg5]

theorem V3_v34 (c : Dev nD) : V3 m ρ c main_v34 = extractStridedSlice S64x64 ![64, 0] (m ((c.tc : Thread nD τ).loc main_arg5)) slices_S128x64_S64x64_64_0 := by
  show StableHlo.after hostOps1 (W2 m ρ c) (Proc.devRef .tc main_v34) = _
  after_results
  rw [W2_arg5]

theorem V3_v35 (c : Dev nD) : V3 m ρ c main_v35 = shapeCast S1x64 (m ((c.tc : Thread nD τ).loc main_arg6)) shapeCasts_S64_S1x64 := by
  show StableHlo.after hostOps1 (W2 m ρ c) (Proc.devRef .tc main_v35) = _
  after_results
  rw [W2_arg6]
  rfl

/-- THE SECOND KERNEL'S OUTPUT is the specified layer of the first layer's result. -/
theorem layer2 (c : Dev nD) :
    Cert.KernelIdeal.Region1.G (V3 m ρ) c
      = Cert.Sage.layerOn (Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2)) (m ((c.tc : Thread nD τ).loc main_arg5)) (m ((c.tc : Thread nD τ).loc main_arg6)) := by
  funext i
  obtain ⟨p, q, rfl⟩ : ∃ (p : Fin 100000) (q : Fin 64), i = ix2 p q := ⟨i 0, i 1, eq_ix2 i⟩
  unfold Cert.KernelIdeal.Region1.G
  rw [V3_v22, V3_v32, V3_v8, V3_v33, V3_v34, V3_v35]
  exact Cert.SageLayer.tileAt_eq_layerAt slices_S128x64_S64x64_0_0 slices_S128x64_S64x64_64_0 shapeCasts_S64_S1x64
    (Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (Cert.Sage.agg (Cert.Sage.layerOn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg2))) (Cert.Sage.cntOf (m ((c.tc : Thread nD τ).loc main_arg2)))
    (invCol (m ((c.tc : Thread nD τ).loc main_arg2))) (m ((c.tc : Thread nD τ).loc main_arg5)) (m ((c.tc : Thread nD τ).loc main_arg6)) (invCol_apply _) p q

/-- THE RESULT ARRAY after the run is the two layers of the arguments. -/
theorem result_eq (c : Dev nD) :
    (dat1 (V3 m ρ) c).arrAt 6 cfg1.N
      = Cert.Sage.twoLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (Cert.KernelIdeal.Region1.final (V3 m ρ) c).trans (layer2 m ρ c)

/-- THE RUN, READ: every weakly fair execution terminates with the result at the two layers of the arguments and the
    arguments unchanged. -/
theorem run : θ_run defs (onTc (τ := τ) (main (F := Ideal))) ⟨m, fun _ => 0, ρ⟩ (fun r => ∀ c : Dev nD,
      r.2.mem ((c.tc : Thread nD τ).loc main_v36)
        = Cert.Sage.twoLayer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (Cert.KernelIdeal.Named.run_named (F := Ideal) m ρ)

end Cert.KernelIdeal.Fold

end
-- ==== Proof.RefLayer.lean ====
/-
  The reference, layer by layer.

  One layer of the reference divides the neighbour sums by the counts raised to one, lays the result beside the node
  features, multiplies by the whole weight, adds the bias and clips below at zero. Read at (p, q) on the extended reals the
  product over the 128 joined columns splits into the 64 columns of the features against the weight's upper rows and the
  64 columns of the means against its lower rows: the layer's specified entry. The reference's result is two such layers
  with the neighbour sums of each layer's own input and the shared counts.
-/
import proofs.«102615_j20444044329487_2_alg».proof.Proof.Gen.ReferenceIdeal.Read
import proofs.«102615_j20444044329487_2_alg».proof.Proof.LayerSpec
import proofs.«102615_j20444044329487_2_alg».proof.Proof.LibBroadcastInDim
import proofs.«102615_j20444044329487_2_alg».proof.Proof.Aggregate

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- One layer as the reference writes it, from the features, the neighbour sums and the counts. -/
def layerTerm (x S : FVec Ideal S100000x64 .f32) (cnt : FVec Ideal S100000 .f32)
    (W : FVec Ideal S128x64 .f32) (b : FVec Ideal S64 .f32) : FVec Ideal S100000x64 .f32 :=
  maximumf (F := Ideal) (addf (Host.dotGeneral dot_S100000x128_S128x64_S100000x64_1_0_0_1_n_n none
      (concatenate S100000x128 1 [⟨S100000x64, x⟩, ⟨S100000x64, (Host.divf S
        (broadcastInDim S100000x64 ![0, 1] bcast_S100000x1_S100000x64_0_1 (broadcastInDim S100000x1 ![0] bcast_S100000_S100000x1_0
          (maximumf cnt (broadcastInDim S100000 ![] bcast_S_S100000 (constant S_ .f32 0x3F800000#32))))))⟩]
        concatenates_S100000x64_S100000x64_S100000x128_d1) W)
    (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The reference's layer is the specified layer. -/
theorem layerTerm_eq (x S : FVec Ideal S100000x64 .f32) (cnt : FVec Ideal S100000 .f32)
    (W : FVec Ideal S128x64 .f32) (b : FVec Ideal S64 .f32) :
    layerTerm x S cnt W b = Cert.SageLayer.layer (M := 100000) x S cnt W b := by
  funext i
  obtain ⟨p, q, rfl⟩ : ∃ (p : Fin 100000) (q : Fin 64), i = ix2 p q := ⟨i 0, i 1, eq_ix2 i⟩
  unfold layerTerm
  rw [maximumf_apply]
  show max _ _ = max (Cert.SplitLinear.entry (Ka := 64) (Kb := 64) (K := 128) rfl x (Cert.SageLayer.mean S cnt) W b p q) 0
  refine congrArg₂ max ?_ ?_
  · refine (Cert.SplitLinear.host_apply (M := 100000) (Ka := 64) (Kb := 64) (K := 128) (N := 64) rfl
      dot_S100000x128_S128x64_S100000x64_1_0_0_1_n_n rfl rfl rfl rfl rfl rfl rfl rfl none
      concatenates_S100000x64_S100000x64_S100000x128_d1 bcast_S64_S1x64_1 bcast_S1x64_S100000x64_0_1 x _ W b p q).trans ?_
    refine congrArg (fun f => Cert.SplitLinear.entry (Ka := 64) (Kb := 64) (K := 128) rfl x f W b p q) ?_
    funext j
    obtain ⟨r, k, rfl⟩ : ∃ (r : Fin 100000) (k : Fin 64), j = ix2 r k := ⟨j 0, j 1, eq_ix2 j⟩
    show Ideal.div (S (ix2 r k)) _ = Ideal.div (S (ix2 r k)) (max (cnt (ix1 r)) 1)
    rw [Cert.BroadcastInDim.rows_apply, Cert.BroadcastInDim.column_apply, maximumf_apply, Cert.BroadcastInDim.scalar_apply,
      constant_apply, Cert.SageLayer.one_word]
  · rw [Cert.BroadcastInDim.scalar_apply, constant_apply]
    exact Ideal.ofBits_zero_f32

/-- The reference's result is its two layers, spelt out. -/
theorem res_eq_terms (m : (ℓ : Loc nD τ sig) → Buf (Elt Ideal) ℓ) (c : Dev nD) :
    Cert.ReferenceIdeal.Value.res_main_v49 (F := Ideal) m c
      = layerTerm
          (layerTerm (m ((c.tc : Thread nD τ).loc main_arg0))
            (Cert.Sage.agg (m ((c.tc : Thread nD τ).loc main_arg0)) (m ((c.tc : Thread nD τ).loc main_arg1)) (m ((c.tc : Thread nD τ).loc main_arg2)))
            (Cert.Sage.cntOf (m ((c.tc : Thread nD τ).loc main_arg2)))
            (m ((c.tc : Thread nD τ).loc main_arg3)) (m ((c.tc : Thread nD τ).loc main_arg4)))
          (Cert.Sage.agg
            (layerTerm (m ((c.tc : Thread nD τ).loc main_arg0))
              (Cert.Sage.agg (m ((c.tc : Thread nD τ).loc main_arg0)) (m ((c.tc : Thread nD τ).loc main_arg1)) (m ((c.tc : Thread nD τ).loc main_arg2)))
              (Cert.Sage.cntOf (m ((c.tc : Thread nD τ).loc main_arg2)))
              (m ((c.tc : Thread nD τ).loc main_arg3)) (m ((c.tc : Thread nD τ).loc main_arg4)))
            (m ((c.tc : Thread nD τ).loc main_arg1)) (m ((c.tc : Thread nD τ).loc main_arg2)))
          (Cert.Sage.cntOf (m ((c.tc : Thread nD τ).loc main_arg2)))
          (m ((c.tc : Thread nD τ).loc main_arg5)) (m ((c.tc : Thread nD τ).loc main_arg6)) := by
  unfold Cert.ReferenceIdeal.Value.res_main_v49
  rfl

/-- THE REFERENCE'S RESULT is the two specified layers of the arguments. -/
theorem res_eq (m : (ℓ : Loc nD τ sig) → Buf (Elt Ideal) ℓ) (c : Dev nD) :
    Cert.ReferenceIdeal.Value.res_main_v49 (F := Ideal) m c
      = Cert.Sage.twoLayer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [res_eq_terms, layerTerm_eq, layerTerm_eq]
  rfl

end Cert.ReferenceIdeal.RefValue

end
-- ==== Proof.lean ====
/-
  Two layers of mean-aggregation graph convolution: the tiled kernel program against the plain reference.

  Each layer maps node features x to max ([x | mean] · W + b, 0), where mean (p) is the sum of the feature rows of the
  nodes with an edge into p, divided by the number of such edges raised to one. The reference forms the quotient, joins
  the two [N, 64] blocks and multiplies by the whole [128, 64] weight. The kernel program forms the column of reciprocals
  1 / max (count, 1) once and, per block of 5000 nodes, computes x · W[0:64] + (sum ⊙ reciprocal) · W[64:128] + b.
  On the extended reals the two agree entry by entry: a contraction over 128 joined columns is the sum of the
  contractions over its two halves (addition is associative and commutative), and the product with the reciprocal of a
  divisor that is at least one is the quotient. Neither law needs a finite operand, so the precondition is not opened.
  The gather and the two scatter-adds are the same operations in both programs and are carried as one function.

  The three frames: the two kernel programs' are the generated frame certificates; the reference's is its generated run
  with the result dropped. The ideal pass rewrote nothing, so the preservation claim is trivial.
-/
import proofs.«102615_j20444044329487_2_alg».proof.Defs
import proofs.«102615_j20444044329487_2_alg».proof.Proof.Gen.Kernel
import proofs.«102615_j20444044329487_2_alg».proof.Proof.Gen.Kernel.Frame
import proofs.«102615_j20444044329487_2_alg».proof.Proof.Gen.KernelIdeal
import proofs.«102615_j20444044329487_2_alg».proof.Proof.Gen.KernelIdeal.Frame
import proofs.«102615_j20444044329487_2_alg».proof.Proof.Gen.ReferenceIdeal
import proofs.«102615_j20444044329487_2_alg».proof.Proof.Gen.ReferenceIdeal.Run
import proofs.«102615_j20444044329487_2_alg».proof.Proof.Gen.Pre_finite_inputs
import proofs.«102615_j20444044329487_2_alg».proof.Proof.KernelValue
import proofs.«102615_j20444044329487_2_alg».proof.Proof.RefLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the two specified layers of the (agreeing) arguments. -/
theorem algebraic : Cert.algebraic_KernelIdeal_ReferenceIdeal := by
  intro m ρ m' ρ' _ hagree
  refine ⟨fun c => Cert.Sage.twoLayer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
